-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048x10 : Shape := ⟨2, ![2048, 10]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x10 : S_.BroadcastsInDim S2048x10 (![] : Fin 0 → Fin S2048x10.rank)
  reducesTo_S2048x10_S_d0_1 : S2048x10.ReducesTo [0, 1] S_

variable [Facts]

def fn_part1 {F : FTy → Type} [FloatOps F] (main_arg4 : FVec F S4096x2048 .f32) (main_arg5 : FVec F S4096x2048 .f32) (main_v13 : IVec S_ 1) (main_v16 : IVec S2048x10 1) : IVec S_ 1 :=
  let main_c_5 : IVec S_ 1 := constantI S_ 1 1#1
  let main_v17 : IVec S_ 1 := (fun x v => Host.reduce IntOp.andi x v reducesTo_S2048x10_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S2048x2048 .f32) (main_arg2 : FVec F S2048x2048 .f32) (main_arg3 : FVec F S2048x10 .f32) (main_arg4 : FVec F S4096x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x10 .f32 := Host.absf main_arg3
  let main_cst_4 : FVec F S_ .f32 := constant S_ .f32 0x7F800000#32
  let main_v15 : FVec F S2048x10 .f32 := broadcastInDim S2048x10 ![] bcast_S_S2048x10 main_cst_4
  let main_v16 : IVec S2048x10 1 := cmpf .olt main_v14 main_v15
  fn_part1 (F := F) main_arg4 main_arg5 main_v13 main_v16
-- ==== Kernel.lean ====
abbrev S4096x2048 : Shape := ⟨2, ![4096, 2048]⟩
abbrev S2048x2048 : Shape := ⟨2, ![2048, 2048]⟩
abbrev S2048x10 : Shape := ⟨2, ![2048, 10]⟩
abbrev S_ : Shape := ⟨0, ![]⟩
abbrev S2048x128 : Shape := ⟨2, ![2048, 128]⟩
abbrev S4096x128 : Shape := ⟨2, ![4096, 128]⟩
abbrev S4096x10 : Shape := ⟨2, ![4096, 10]⟩
abbrev S256x2048 : Shape := ⟨2, ![256, 2048]⟩
abbrev S256x128 : Shape := ⟨2, ![256, 128]⟩

abbrev nBuf : Space → Nat
  | .hbm => 15
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x10, .f32⟩
  | .hbm, ⟨4, _⟩ => ⟨S4096x2048, .f32⟩
  | .hbm, ⟨5, _⟩ => ⟨S4096x2048, .f32⟩
  | .hbm, ⟨6, _⟩ => ⟨S2048x2048, .bf16⟩
  | .hbm, ⟨7, _⟩ => ⟨S2048x2048, .bf16⟩
  | .hbm, ⟨8, _⟩ => ⟨S2048x10, .bf16⟩
  | .hbm, ⟨9, _⟩ => ⟨S_, .i32⟩
  | .hbm, ⟨10, _⟩ => ⟨S_, .bf16⟩
  | .hbm, ⟨11, _⟩ => ⟨S2048x128, .bf16⟩
  | .hbm, ⟨12, _⟩ => ⟨S4096x2048, .f32⟩
  | .hbm, ⟨13, _⟩ => ⟨S4096x128, .f32⟩
  | .hbm, ⟨14, _⟩ => ⟨S4096x10, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S2048x2048, .bf16⟩
  | .local _ .vmem, ⟨6, _⟩ => ⟨S256x2048, .f32⟩
  | .local _ .vmem, ⟨7, _⟩ => ⟨S256x2048, .f32⟩
  | .local _ .vmem, ⟨8, _⟩ => ⟨S2048x128, .bf16⟩
  | .local _ .vmem, ⟨9, _⟩ => ⟨S256x2048, .f32⟩
  | .local _ .vmem, ⟨10, _⟩ => ⟨S256x2048, .f32⟩
  | .local _ .vmem, ⟨11, _⟩ => ⟨S256x128, .f32⟩
  | .local _ .vmem, ⟨12, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c : Ref sig .tc := ⟨.hbm, 9, rfl⟩
abbrev main_call0_call0_v0 : Ref sig .tc := ⟨.hbm, 10, rfl⟩
abbrev main_call0_v3 : Ref sig .tc := ⟨.hbm, 11, rfl⟩
abbrev main_v0_1 : Ref sig .tc := ⟨.hbm, 12, rfl⟩
abbrev main_call0_v4_1 : Ref sig .tc := ⟨.hbm, 13, rfl⟩
abbrev main_v0_0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  pads_S2048x10_S2048x128_000_01180 : S2048x10.Pads (![0, 0] : Fin 2 → Nat) ![0, 118] ![0, 0] S2048x128
  h_S_ : 0 < S_.numel
  slices_S4096x128_S4096x10_0_0 : S4096x128.Slices ![0, 0] S4096x10
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x128_S256x128_0_0 : ∀ a, (![0, 0] : Fin 2 → Nat) a + S256x128.size a ≤ S256x128.size a
  h_S256x128 : 0 < S256x128.numel
  dot_S256x2048_S2048x2048_S256x2048_1_0_0_1_n_n_wf : DotDims.WF S256x2048 S2048x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S4096x128.size a
  hwx0_7 : ∀ i : grid0.Coords, EltTy.bits .f32 = 32 ∨ (Rect.block (s := S4096x128) S256x128.size (cc0_transform_7 i) (hinb0_7 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4_1) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048x10 : Shape := ⟨2, ![2048, 10]⟩
abbrev S4096x10 : Shape := ⟨2, ![4096, 10]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x10, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x10, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  dot_S4096x2048_S2048x2048_S4096x2048_1_0_0_1_n_n_wf : DotDims.WF S4096x2048 S2048x2048 S4096x2048 [1] [0] [0] [1] [] []
  dot_S4096x2048_S2048x10_S4096x10_1_0_0_1_n_n_wf : DotDims.WF S4096x2048 S2048x10 S4096x10 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x10_S4096x10_1_0_0_1_n_n : DotDims S4096x2048 S2048x10 S4096x10 where
  lhsContracting := [1]
  rhsContracting := [0]
  lhsNonContracting := [0]
  rhsNonContracting := [1]
  lhsBatch := []
  rhsBatch := []
  wf := dot_S4096x2048_S2048x10_S4096x10_1_0_0_1_n_n_wf

class Facts : Prop extends Facts₀ where

variable [Facts]
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.Payload.lean ====
/-
  What the kernel body computes at one grid point, entry by entry, on the extended reals.

  The body loads a block of 256 rows of the batch, of the previous state and of the bias, and all of the three weight
  arrays. Changing a value's float format does nothing on the extended reals, a shape cast to the same shape does
  nothing, and a matrix product into a zero accumulator is the plain sum of products over the contracted axis. So the
  first stored value, at row `p` of the block and unit `q`, is

      tanh ( Σ_k x[p, k] · wx[k, q]  +  Σ_k h0[p, k] · wh[k, q]  +  b[p, q] ),

  and the second stored value at row `p` and lane `j` is the sum over `k` of the first value at `(p, k)` times the
  padded read-out weight at `(k, j)`.
-/
import proofs.«143743_j39986145526476_2_alg».proof.Proof.Gen.KernelIdeal.Skeleton
import proofs.«143743_j39986145526476_2_alg».proof.Proof.LibRowMax
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.KernelIdeal.Facts₀

/-- A [256, 2048] × [2048, 2048] product into the zero accumulator, at `(p, q)`: the sum over the contracted axis. -/
theorem product_apply (lhs : FVec Ideal S256x2048 .bf16) (rhs : FVec Ideal S2048x2048 .bf16) (p : Fin 256) (q : Fin 2048) :
    FloatOps.matmul dot_S256x2048_S2048x2048_S256x2048_1_0_0_1_n_n none lhs rhs (constant S256x2048 .f32 0x00000000#32) (ix2 p q)
      = ∑ k : Fin 2048, lhs (ix2 p k) * rhs (ix2 k q) :=
  Cert.LibRowMax.matmul_plain_apply (a := 256) (k := 2048) (b := 2048)
    Facts₀.dot_S256x2048_S2048x2048_S256x2048_1_0_0_1_n_n_wf none lhs rhs p q

/-- A [256, 2048] × [2048, 128] product into the zero accumulator, at `(p, j)`: the sum over the contracted axis. -/
theorem product_lanes_apply (lhs : FVec Ideal S256x2048 .bf16) (rhs : FVec Ideal S2048x128 .bf16) (p : Fin 256) (j : Fin 128) :
    FloatOps.matmul dot_S256x2048_S2048x128_S256x128_1_0_0_1_n_n none lhs rhs (constant S256x128 .f32 0x00000000#32) (ix2 p j)
      = ∑ k : Fin 2048, lhs (ix2 p k) * rhs (ix2 k j) :=
  Cert.LibRowMax.matmul_plain_apply (a := 256) (k := 2048) (b := 128)
    Facts₀.dot_S256x2048_S2048x128_S256x128_1_0_0_1_n_n_wf none lhs rhs p j

/-- The first stored value at row `p` of the block and unit `q`. -/
theorem state_apply (x0 hb : FVec Ideal S256x2048 .f32) (wx wh : FVec Ideal S2048x2048 .bf16) (bb : FVec Ideal S256x2048 .f32)
    (p : Fin 256) (q : Fin 2048) :
    k0_pay1 (F := Ideal) x0 hb wx wh bb (ix2 p q)
      = Ideal.tanh ((∑ k : Fin 2048, x0 (ix2 p k) * wx (ix2 k q)) + (∑ k : Fin 2048, hb (ix2 p k) * wh (ix2 k q))
          + bb (ix2 p q)) := by
  unfold k0_pay1
  rw [shapeCast_self, shapeCast_self]
  refine congrArg Ideal.tanh ?_
  refine congrArg₂ (· + ·) (congrArg₂ (· + ·) ?_ ?_) rfl
  · exact product_apply _ wx p q
  · exact product_apply _ wh p q

/-- The second stored value at row `p` of the block and lane `j`. -/
theorem readout_apply (x0 hb : FVec Ideal S256x2048 .f32) (wx wh : FVec Ideal S2048x2048 .bf16) (bb : FVec Ideal S256x2048 .f32)
    (wp : FVec Ideal S2048x128 .bf16) (p : Fin 256) (j : Fin 128) :
    k0_pay2 (F := Ideal) x0 hb wx wh bb wp (ix2 p j)
      = ∑ k : Fin 2048, k0_pay1 (F := Ideal) x0 hb wx wh bb (ix2 p k) * wp (ix2 k j) := by
  unfold k0_pay2
  rw [shapeCast_self]
  exact product_lanes_apply _ wp p j

end Cert.KernelIdeal.Body

end
-- ==== Proof.Cell.lean ====
/-
  One step of a plain recurrent cell, as functions on the extended reals.

  For a batch `x : [4096, 2048]`, weights `wx, wh : [2048, 2048]`, a bias `b : [4096, 2048]` and a previous state
  `h0 : [4096, 2048]`, the new state at row `r` and unit `q` is

      tanh ( Σ_k x[r, k] · wx[k, q]  +  Σ_k h0[r, k] · wh[k, q]  +  b[r, q] ),

  the two products added first and the bias last; and the read-out of a state `h : [4096, 2048]` through weights
  `w : [2048, n]` at row `r` and column `j` is `Σ_k h[r, k] · w[k, j]`. The read-out is stated for any number of
  columns `n`: it is used at the 10 classes and at 128 lanes (the classes followed by padding columns). Column `j` of
  the read-out depends on column `j` of the weights only, so read-outs through weights that agree on a column agree
  on it.
-/
import Idealize.ShloMosaic.PureOps.Ideal
import Idealize.ShloMosaic.Lib.ValueIdx

noncomputable section

namespace Cert.Cell

open Idealize.ShloMosaic Idealize.ShloMosaic.ValueIdx

/-- The new state at row `r`, unit `q`: `tanh` of the two products' sum plus the bias. -/
def hiddenAt (x : (⟨2, ![4096, 2048]⟩ : Shape).Idx → EReal) (wx wh : (⟨2, ![2048, 2048]⟩ : Shape).Idx → EReal)
    (b h0 : (⟨2, ![4096, 2048]⟩ : Shape).Idx → EReal) (r : Fin 4096) (q : Fin 2048) : EReal :=
  Ideal.tanh ((∑ k : Fin 2048, x (ix2 r k) * wx (ix2 k q)) + (∑ k : Fin 2048, h0 (ix2 r k) * wh (ix2 k q)) + b (ix2 r q))

/-- The new state as an array. -/
def hidden (x : (⟨2, ![4096, 2048]⟩ : Shape).Idx → EReal) (wx wh : (⟨2, ![2048, 2048]⟩ : Shape).Idx → EReal)
    (b h0 : (⟨2, ![4096, 2048]⟩ : Shape).Idx → EReal) : (⟨2, ![4096, 2048]⟩ : Shape).Idx → EReal :=
  fun i => hiddenAt x wx wh b h0 ⟨(i 0).val, (i 0).isLt⟩ ⟨(i 1).val, (i 1).isLt⟩

theorem hidden_ix2 (x : (⟨2, ![4096, 2048]⟩ : Shape).Idx → EReal) (wx wh : (⟨2, ![2048, 2048]⟩ : Shape).Idx → EReal)
    (b h0 : (⟨2, ![4096, 2048]⟩ : Shape).Idx → EReal) (r : Fin 4096) (q : Fin 2048) :
    hidden x wx wh b h0 (ix2 r q) = hiddenAt x wx wh b h0 r q := rfl

/-- The read-out of a state through `n` columns of weights, at row `r` and column `j`. -/
def scoresAt {n : ℕ} (h : (⟨2, ![4096, 2048]⟩ : Shape).Idx → EReal) (w : (⟨2, ![2048, n]⟩ : Shape).Idx → EReal)
    (r : Fin 4096) (j : Fin n) : EReal :=
  ∑ k : Fin 2048, h (ix2 r k) * w (ix2 k j)

/-- The read-out as an array. -/
def scores {n : ℕ} (h : (⟨2, ![4096, 2048]⟩ : Shape).Idx → EReal) (w : (⟨2, ![2048, n]⟩ : Shape).Idx → EReal) :
    (⟨2, ![4096, n]⟩ : Shape).Idx → EReal :=
  fun i => scoresAt h w ⟨(i 0).val, (i 0).isLt⟩ ⟨(i 1).val, (i 1).isLt⟩

theorem scores_ix2 {n : ℕ} (h : (⟨2, ![4096, 2048]⟩ : Shape).Idx → EReal) (w : (⟨2, ![2048, n]⟩ : Shape).Idx → EReal)
    (r : Fin 4096) (j : Fin n) : scores h w (ix2 r j) = scoresAt h w r j := rfl

/-- Column `j` of a read-out through `n` columns is column `j'` of a read-out through `n'` columns when the two weight
    arrays agree on those columns. -/
theorem scoresAt_congr {n n' : ℕ} (h : (⟨2, ![4096, 2048]⟩ : Shape).Idx → EReal)
    (w : (⟨2, ![2048, n]⟩ : Shape).Idx → EReal) (w' : (⟨2, ![2048, n']⟩ : Shape).Idx → EReal) (r : Fin 4096)
    (j : Fin n) (j' : Fin n') (hw : ∀ k : Fin 2048, w (ix2 k j) = w' (ix2 k j')) :
    scoresAt h w r j = scoresAt h w' r j' :=
  Finset.sum_congr rfl fun k _ => by rw [hw k]

end Cert.Cell

end
-- ==== Proof.Blocks.lean ====
/-
  The arrays the kernel's program leaves, as functions of its arguments.

  The grid has 16 points; point `t` works on rows `256·t … 256·t + 255`. Its blocks of the batch, of the previous
  state and of the bias are those rows of the three arrays, its blocks of the weight arrays are the whole arrays, and it
  writes those rows of the two output arrays. So the value stored at row `p` of the block is the cell's new state at
  row `256·t + p` of the arrays, every row of the outputs is written by the point `row / 256`, and after the run the
  first output array is the new state and the second its read-out through the padded weights.

  Around the kernel: the weight arrays reach it through a change of float format, which is the identity on the extended
  reals; the read-out weights are first padded from 10 to 128 columns, so their first 10 columns are the argument's;
  and the program's first result is the first 10 columns of the second output array, which is the read-out through the
  argument's 10 columns.
-/
import proofs.«143743_j39986145526476_2_alg».proof.Proof.Gen.KernelIdeal.Frame
import proofs.«143743_j39986145526476_2_alg».proof.Proof.Payload
import proofs.«143743_j39986145526476_2_alg».proof.Proof.Cell
import Idealize.ShloMosaic.Lib.Pipeline.Value
import Idealize.ShloMosaic.Lib.KernelVsHost
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the row-blocked windows at block row `t`, the weight windows at the
    origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem row_lt (t : Fin cfg0.N) (p : Fin 256) : t.val * 256 + p.val < 4096 := by
  have h : t.val < 16 := lt_of_lt_of_eq t.isLt N_0
  have := p.isLt
  omega

/-! ## The input blocks as rows of the arrays -/

/-- The batch's block at point `t`, at `(p, k)`: row `256·t + p` of the array. -/
theorem batch_block (c : Dev nD) (t : Fin cfg0.N) (p : Fin 256) (k : Fin 2048) :
    (iblk m c 0 t : FVec Ideal S256x2048 .f32) (ix2 p k)
      = (V m c main_arg0 : S4096x2048.Idx → EReal) (ix2 ⟨t.val * 256 + p.val, row_lt t p⟩ k) := by
  obtain ⟨e0, e1, -⟩ := idx_facts t
  show V m c main_arg0 (((cfg0.win 0).blk t).view.emb (ix2 p k)) = _
  refine congrArg (V m c main_arg0) ?_
  funext a; apply Fin.ext
  match a with
  | ⟨0, _⟩ => show win0_0.index t (0 : Fin 2) * 256 + 1 * p.val = t.val * 256 + p.val; omega
  | ⟨1, _⟩ => show win0_0.index t (1 : Fin 2) * 2048 + 1 * k.val = k.val; omega

/-- The previous state's block at point `t`, at `(p, k)`: row `256·t + p` of the array. -/
theorem prev_block (c : Dev nD) (t : Fin cfg0.N) (p : Fin 256) (k : Fin 2048) :
    (iblk m c 2 t : FVec Ideal S256x2048 .f32) (ix2 p k)
      = (V m c main_arg5 : S4096x2048.Idx → EReal) (ix2 ⟨t.val * 256 + p.val, row_lt t p⟩ k) := by
  obtain ⟨-, -, -, -, e0, e1, -⟩ := idx_facts t
  show V m c main_arg5 (((cfg0.win 2).blk t).view.emb (ix2 p k)) = _
  refine congrArg (V m c main_arg5) ?_
  funext a; apply Fin.ext
  match a with
  | ⟨0, _⟩ => show win0_2.index t (0 : Fin 2) * 256 + 1 * p.val = t.val * 256 + p.val; omega
  | ⟨1, _⟩ => show win0_2.index t (1 : Fin 2) * 2048 + 1 * k.val = k.val; omega

/-- The bias's block at point `t`, at `(p, q)`: row `256·t + p` of the array. -/
theorem bias_block (c : Dev nD) (t : Fin cfg0.N) (p : Fin 256) (q : Fin 2048) :
    (iblk m c 4 t : FVec Ideal S256x2048 .f32) (ix2 p q)
      = (V m c main_arg4 : S4096x2048.Idx → EReal) (ix2 ⟨t.val * 256 + p.val, row_lt t p⟩ q) := by
  obtain ⟨-, -, -, -, -, -, -, -, e0, e1, -⟩ := idx_facts t
  show V m c main_arg4 (((cfg0.win 4).blk t).view.emb (ix2 p q)) = _
  refine congrArg (V m c main_arg4) ?_
  funext a; apply Fin.ext
  match a with
  | ⟨0, _⟩ => show win0_4.index t (0 : Fin 2) * 256 + 1 * p.val = t.val * 256 + p.val; omega
  | ⟨1, _⟩ => show win0_4.index t (1 : Fin 2) * 2048 + 1 * q.val = q.val; omega

/-- The input weights' block at any point is the whole array. -/
theorem wx_block (c : Dev nD) (t : Fin cfg0.N) (k q : Fin 2048) :
    (iblk m c 1 t : FVec Ideal S2048x2048 .bf16) (ix2 k q) = (V m c main_call0_v0 : S2048x2048.Idx → EReal) (ix2 k q) := by
  obtain ⟨-, -, e0, e1, -⟩ := idx_facts t
  show V m c main_call0_v0 (((cfg0.win 1).blk t).view.emb (ix2 k q)) = _
  refine congrArg (V m c main_call0_v0) ?_
  funext a; apply Fin.ext
  match a with
  | ⟨0, _⟩ => show win0_1.index t (0 : Fin 2) * 2048 + 1 * k.val = k.val; omega
  | ⟨1, _⟩ => show win0_1.index t (1 : Fin 2) * 2048 + 1 * q.val = q.val; omega

/-- The recurrent weights' block at any point is the whole array. -/
theorem wh_block (c : Dev nD) (t : Fin cfg0.N) (k q : Fin 2048) :
    (iblk m c 3 t : FVec Ideal S2048x2048 .bf16) (ix2 k q) = (V m c main_call0_v1 : S2048x2048.Idx → EReal) (ix2 k q) := by
  obtain ⟨-, -, -, -, -, -, e0, e1, -⟩ := idx_facts t
  show V m c main_call0_v1 (((cfg0.win 3).blk t).view.emb (ix2 k q)) = _
  refine congrArg (V m c main_call0_v1) ?_
  funext a; apply Fin.ext
  match a with
  | ⟨0, _⟩ => show win0_3.index t (0 : Fin 2) * 2048 + 1 * k.val = k.val; omega
  | ⟨1, _⟩ => show win0_3.index t (1 : Fin 2) * 2048 + 1 * q.val = q.val; omega

/-- The padded read-out weights' block at any point is the whole array. -/
theorem wp_block (c : Dev nD) (t : Fin cfg0.N) (k : Fin 2048) (j : Fin 128) :
    (iblk m c 5 t : FVec Ideal S2048x128 .bf16) (ix2 k j) = (V m c main_call0_v3 : S2048x128.Idx → EReal) (ix2 k j) := by
  obtain ⟨-, -, -, -, -, -, -, -, -, -, e0, e1, -⟩ := idx_facts t
  show V m c main_call0_v3 (((cfg0.win 5).blk t).view.emb (ix2 k j)) = _
  refine congrArg (V m c main_call0_v3) ?_
  funext a; apply Fin.ext
  match a with
  | ⟨0, _⟩ => show win0_5.index t (0 : Fin 2) * 2048 + 1 * k.val = k.val; omega
  | ⟨1, _⟩ => show win0_5.index t (1 : Fin 2) * 128 + 1 * j.val = j.val; omega

/-! ## What a point stores -/

/-- The new state of the arrays as the kernel finds them. -/
def stateV (c : Dev nD) : S4096x2048.Idx → EReal :=
  Cert.Cell.hidden (V m c main_arg0) (V m c main_call0_v0) (V m c main_call0_v1) (V m c main_arg4) (V m c main_arg5)

/-- The first stored value at point `t`, row `p` of the block, unit `q`: the new state at row `256·t + p`. -/
theorem state_at (c : Dev nD) (t : Fin cfg0.N) (p : Fin 256) (q : Fin 2048) :
    k0_pay1 (F := Ideal) (iblk m c 0 t) (iblk m c 2 t) (iblk m c 1 t) (iblk m c 3 t) (iblk m c 4 t) (ix2 p q)
      = stateV m c (ix2 ⟨t.val * 256 + p.val, row_lt t p⟩ q) := by
  refine (Cert.KernelIdeal.Body.state_apply (iblk m c 0 t) (iblk m c 2 t) (iblk m c 1 t) (iblk m c 3 t) (iblk m c 4 t) p q).trans ?_
  unfold stateV
  rw [Cert.Cell.hidden_ix2]
  unfold Cert.Cell.hiddenAt
  refine congrArg Ideal.tanh (congrArg₂ (· + ·) (congrArg₂ (· + ·) (Finset.sum_congr rfl fun k _ => ?_)
    (Finset.sum_congr rfl fun k _ => ?_)) ?_)
  · exact congrArg₂ (· * ·) (batch_block m c t p k) (wx_block m c t k q)
  · exact congrArg₂ (· * ·) (prev_block m c t p k) (wh_block m c t k q)
  · exact bias_block m c t p q

/-- The read-out of that state through the padded weights as the kernel finds them. -/
def scoresV (c : Dev nD) : S4096x128.Idx → EReal :=
  Cert.Cell.scores (stateV m c) (V m c main_call0_v3 : S2048x128.Idx → EReal)

/-- What point `t` writes back to the state array is its block of the new state. -/
theorem flushed_state (c : Dev nD) (t : Fin cfg0.N) :
    (dats m 0 c).flushed 6 t = ((cfg0.win 6).blk t).view.read (Elt Ideal) (stateV m c) := by
  show (cfg0.win 6).cut (grid0.coords t) ((dats m 0 c).after 6 t) = _
  rw [after0_6]
  unfold out0_6
  rw [View.canon_unit_zero hz]
  simp only [View.ld_unit_zero (S := S256x2048) hz, View.ld_unit_zero (S := S2048x2048) hz]
  obtain ⟨-, -, -, -, -, -, -, -, -, -, -, -, e0, e1, -⟩ := idx_facts t
  funext j
  obtain ⟨p, q, rfl⟩ : ∃ (p : Fin 256) (q : Fin 2048), j = ix2 p q := ⟨j 0, j 1, eq_ix2 j⟩
  show k0_pay1 (F := Ideal) (iblk m c 0 t) (iblk m c 2 t) (iblk m c 1 t) (iblk m c 3 t) (iblk m c 4 t) (ix2 p q)
    = stateV m c (((cfg0.win 6).blk t).view.emb (ix2 p q))
  refine (state_at m c t p q).trans (congrArg (stateV m c) ?_)
  funext a; apply Fin.ext
  match a with
  | ⟨0, _⟩ => show t.val * 256 + p.val = win0_6.index t (0 : Fin 2) * 256 + 1 * p.val; omega
  | ⟨1, _⟩ => show q.val = win0_6.index t (1 : Fin 2) * 2048 + 1 * q.val; omega

/-- What point `t` writes back to the read-out array is its block of the read-out. -/
theorem flushed_scores (c : Dev nD) (t : Fin cfg0.N) :
    (dats m 0 c).flushed 7 t = ((cfg0.win 7).blk t).view.read (Elt Ideal) (scoresV m c) := by
  show (cfg0.win 7).cut (grid0.coords t) ((dats m 0 c).after 7 t) = _
  rw [after0_7]
  unfold out0_7
  rw [View.canon_unit_zero hz]
  simp only [View.ld_unit_zero (S := S256x2048) hz, View.ld_unit_zero (S := S2048x2048) hz, View.ld_unit_zero (S := S2048x128) hz]
  obtain ⟨-, -, -, -, -, -, -, -, -, -, -, -, -, -, e0, e1⟩ := idx_facts t
  funext j
  obtain ⟨p, l, rfl⟩ : ∃ (p : Fin 256) (l : Fin 128), j = ix2 p l := ⟨j 0, j 1, eq_ix2 j⟩
  show k0_pay2 (F := Ideal) (iblk m c 0 t) (iblk m c 2 t) (iblk m c 1 t) (iblk m c 3 t) (iblk m c 4 t) (iblk m c 5 t) (ix2 p l)
    = scoresV m c (((cfg0.win 7).blk t).view.emb (ix2 p l))
  have hemb : ((cfg0.win 7).blk t).view.emb (ix2 p l) = (ix2 ⟨t.val * 256 + p.val, row_lt t p⟩ l : S4096x128.Idx) := by
    funext a; apply Fin.ext
    match a with
    | ⟨0, _⟩ => show win0_7.index t (0 : Fin 2) * 256 + 1 * p.val = t.val * 256 + p.val; omega
    | ⟨1, _⟩ => show win0_7.index t (1 : Fin 2) * 128 + 1 * l.val = l.val; omega
  rw [hemb]
  refine (Cert.KernelIdeal.Body.readout_apply (iblk m c 0 t) (iblk m c 2 t) (iblk m c 1 t) (iblk m c 3 t) (iblk m c 4 t)
    (iblk m c 5 t) p l).trans ?_
  unfold scoresV
  rw [Cert.Cell.scores_ix2]
  unfold Cert.Cell.scoresAt
  exact Finset.sum_congr rfl fun k _ => congrArg₂ (· * ·) (state_at m c t p k) (wp_block m c t k l)

/-! ## Every row is written -/

theorem mem_state_block (t : Fin cfg0.N) (i : S4096x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v0_1).slice (win0_6.rect t)).set ↔ _
  rw [View.set_slice_whole, Rect.mem_set_unit]
  exact Iff.rfl

theorem mem_scores_block (t : Fin cfg0.N) (i : S4096x128.Idx) :
    i ∈ ((cfg0.win 7).blk t).view.set ↔ ∀ a : Fin 2, win0_7.index t a * S256x128.size a ≤ (i a).val
      ∧ (i a).val < win0_7.index t a * S256x128.size a + S256x128.size a := by
  show i ∈ ((View.whole main_call0_v4_1).slice (win0_7.rect t)).set ↔ _
  rw [View.set_slice_whole, Rect.mem_set_unit]
  exact Iff.rfl

/-- Row `r` of the state array is written by point `r / 256`. -/
theorem state_covered (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  have hN : (i 0).val / 256 < cfg0.N := lt_of_lt_of_eq (by omega : (i 0).val / 256 < 16) N_0.symm
  obtain ⟨-, -, -, -, -, -, -, -, -, -, -, -, e0, e1, -⟩ := idx_facts ⟨(i 0).val / 256, hN⟩
  refine ⟨⟨(i 0).val / 256, hN⟩, flush0_6 _, ?_⟩
  rw [mem_state_block]
  intro a
  match a with
  | ⟨0, _⟩ =>
    show win0_6.index ⟨(i 0).val / 256, hN⟩ (0 : Fin 2) * 256 ≤ (i 0).val
      ∧ (i 0).val < win0_6.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hN⟩ (1 : Fin 2) * 2048 ≤ (i 1).val
      ∧ (i 1).val < win0_6.index ⟨(i 0).val / 256, hN⟩ (1 : Fin 2) * 2048 + 2048
    rw [e1]; omega

/-- Row `r` of the read-out array is written by point `r / 256`. -/
theorem scores_covered (i : S4096x128.Idx) :
    ∃ t : Fin cfg0.N, (cfg0.win 7).flush t = true ∧ i ∈ ((cfg0.win 7).blk t).view.set := by
  have hi0 : (i 0).val < 4096 := (i 0).isLt
  have hi1 : (i 1).val < 128 := (i 1).isLt
  have hN : (i 0).val / 256 < cfg0.N := lt_of_lt_of_eq (by omega : (i 0).val / 256 < 16) N_0.symm
  obtain ⟨-, -, -, -, -, -, -, -, -, -, -, -, -, -, e0, e1⟩ := idx_facts ⟨(i 0).val / 256, hN⟩
  refine ⟨⟨(i 0).val / 256, hN⟩, flush0_7 _, ?_⟩
  rw [mem_scores_block]
  intro a
  match a with
  | ⟨0, _⟩ =>
    show win0_7.index ⟨(i 0).val / 256, hN⟩ (0 : Fin 2) * 256 ≤ (i 0).val
      ∧ (i 0).val < win0_7.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hN⟩ (1 : Fin 2) * 128 ≤ (i 1).val
      ∧ (i 1).val < win0_7.index ⟨(i 0).val / 256, hN⟩ (1 : Fin 2) * 128 + 128
    rw [e1]; omega

/-- After the run the state array holds the new state, -/
theorem final_state (c : Dev nD) : (dats m 0 c).arrAt 6 cfg0.N = stateV m c :=
  (dats m 0 c).arrAt_eq_of_cover 6 (stateV m c) (fun t _ => flushed_state m c t) state_covered

/-- and the read-out array its read-out through the padded weights. -/
theorem final_scores (c : Dev nD) : (dats m 0 c).arrAt 7 cfg0.N = scoresV m c :=
  (dats m 0 c).arrAt_eq_of_cover 7 (scoresV m c) (fun t _ => flushed_scores m c t) scores_covered

end Cert.KernelIdeal.Arrays

end
-- ==== Proof.Host.lean ====
/-
  The host operations around the kernel, read on the extended reals.

  Before the kernel the two square weight arrays are changed to a narrower float format, which is the identity on the
  extended reals, so the kernel finds the arguments themselves. The read-out weights are also padded on the right from
  10 to 128 columns; entry `(k, j)` of the padded array with `j < 10` is entry `(k, j)` of the argument, whatever the
  padding value. After the kernel the program's first result is the slice `[0:4096, 0:10]` of the kernel's second
  output array.
-/
import proofs.«143743_j39986145526476_2_alg».proof.Proof.Gen.KernelIdeal.Frame
import Idealize.ShloMosaic.Lib.Pipeline.Value
import Idealize.ShloMosaic.Lib.KernelVsHost
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ)

/-- The kernel finds the input weights as launched. -/
theorem input_weights (c : Dev nD) :
    (V m c main_call0_v0 : S2048x2048.Idx → EReal) = (m ((c : Thread nD τ).loc main_arg1) : S2048x2048.Idx → EReal) := by
  show StableHlo.after hostOps0 (fun b => m (c, b)) (Proc.devRef .tc main_call0_v0) = _
  after_results
  rfl

/-- The kernel finds the recurrent weights as launched. -/
theorem recurrent_weights (c : Dev nD) :
    (V m c main_call0_v1 : S2048x2048.Idx → EReal) = (m ((c : Thread nD τ).loc main_arg2) : S2048x2048.Idx → EReal) := by
  show StableHlo.after hostOps0 (fun b => m (c, b)) (Proc.devRef .tc main_call0_v1) = _
  after_results
  rfl

/-- The kernel finds the read-out weights padded on the right to 128 columns. -/
theorem readout_weights (c : Dev nD) : (V m c main_call0_v3 : S2048x128.Idx → EReal)
    = pad S2048x128 ![0, 0] ![0, 118] ![0, 0] (m ((c : Thread nD τ).loc main_arg3) : S2048x10.Idx → EReal)
        (sitofp (F := Ideal) .bf16 (constantI S_ 32 0#32)) Facts₀.pads_S2048x10_S2048x128_000_01180 Facts₀.h_S_ := by
  show StableHlo.after hostOps0 (fun b => m (c, b)) (Proc.devRef .tc main_call0_v3) = _
  after_results
  rfl

/-- A column `j < 10` of the padded array is the argument's column `j`. -/
theorem pad_column (x : S2048x10.Idx → EReal) (v : S_.Idx → EReal) (k : Fin 2048) (j : Fin 10) :
    pad S2048x128 ![0, 0] ![0, 118] ![0, 0] x v Facts₀.pads_S2048x10_S2048x128_000_01180 Facts₀.h_S_
        (ix2 k ⟨j.val, by omega⟩ : S2048x128.Idx)
      = x (ix2 k j) := by
  refine pad_apply_of_inside _ _ _ x v _ _ _ (ix2 k j) fun a => ?_
  match a with
  | ⟨0, _⟩ => show k.val = 0 + k.val * (0 + 1); omega
  | ⟨1, _⟩ => show j.val = 0 + j.val * (0 + 1); omega

/-- Entry `(r, j)` of the slice `[0:4096, 0:10]` of a [4096, 128] array is the array's entry `(r, j)`. -/
theorem first_columns (A : S4096x128.Idx → EReal) (r : Fin 4096) (j : Fin 10) :
    extractStridedSlice S4096x10 ![0, 0] A Facts₀.slices_S4096x128_S4096x10_0_0 (ix2 r j : S4096x10.Idx)
      = A (ix2 r ⟨j.val, by omega⟩ : S4096x128.Idx) := by
  refine extractStridedSlice_apply (s := S4096x128) (t := S4096x10) ![0, 0] A Facts₀.slices_S4096x128_S4096x10_0_0
    (ix2 r j : S4096x10.Idx) (ix2 r ⟨j.val, by omega⟩ : S4096x128.Idx) fun a => ?_
  match a with
  | ⟨0, _⟩ => show r.val = 0 + r.val; omega
  | ⟨1, _⟩ => show j.val = 0 + j.val; omega

/-- The program's first result: the first 10 columns of what the kernel's second output array holds after the run. -/
theorem first_result (c : Dev nD) (A : S4096x128.Idx → EReal) (hA : (dats m 0 c).arrAt 7 cfg0.N = A) :
    Pipeline.afterTail₀ cfgs (dats m) 0 (V0 m) [hostOps1] c main_v0_0
      = extractStridedSlice S4096x10 ![0, 0] A Facts₀.slices_S4096x128_S4096x10_0_0 := by
  unfold Pipeline.afterTail₀
  show StableHlo.after hostOps1 _ (Proc.devRef .tc main_v0_0) = _
  after_results
  exact congrArg (fun z => extractStridedSlice S4096x10 ![0, 0] z Facts₀.slices_S4096x128_S4096x10_0_0)
    ((Pipeline.withArrays_arr spec0 launch0.win.arr_inj c (V0 m c) (fun w => (dats m 0 c).arrAt w (cfgs 0).N) 7).trans hA)

end Cert.KernelIdeal.Host

end
-- ==== Proof.Results.lean ====
/-
  The kernel's program, run: its two results as functions of its arguments.

  The second result is the kernel's first output array: the cell's new state of the arguments. The first result is the
  first 10 columns of the kernel's second output array, which holds the read-out of that state through the padded
  weights; a column `j < 10` of that read-out depends on column `j` of the padded weights only, which is the argument's
  column `j`, so the first result is the read-out through the argument's weights.
-/
import proofs.«143743_j39986145526476_2_alg».proof.Proof.Blocks
import proofs.«143743_j39986145526476_2_alg».proof.Proof.Host

noncomputable section

open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen

variable (m : (ℓ : Loc nD τ sig) → Buf (Elt Ideal) ℓ) (ρ : Dev nD → PrngReg)

/-- The new state of the arguments. -/
abbrev state (c : Dev nD) : S4096x2048.Idx → EReal :=
  Cert.Cell.hidden (m ((c : Thread nD τ).loc main_arg0)) (m ((c : Thread nD τ).loc main_arg1))
    (m ((c : Thread nD τ).loc main_arg2)) (m ((c : Thread nD τ).loc main_arg4)) (m ((c : Thread nD τ).loc main_arg5))

/-- Its read-out through the argument's weights. -/
abbrev readout (c : Dev nD) : S4096x10.Idx → EReal :=
  Cert.Cell.scores (state m c) (m ((c : Thread nD τ).loc main_arg3))

/-- The state of the arrays as the kernel finds them is the state of the arguments. -/
theorem stateV_eq (c : Dev nD) : Cert.KernelIdeal.Arrays.stateV m c = state m c := by
  unfold Cert.KernelIdeal.Arrays.stateV
  rw [V_main_arg0, V_main_arg4, V_main_arg5, Cert.KernelIdeal.Host.input_weights, Cert.KernelIdeal.Host.recurrent_weights]

/-- Column `j < 10` of the read-out through the padded weights is column `j` of the read-out through the argument's. -/
theorem scores_column (c : Dev nD) (r : Fin 4096) (j : Fin 10) :
    Cert.KernelIdeal.Arrays.scoresV m c (ix2 r ⟨j.val, by omega⟩ : S4096x128.Idx)
      = Cert.Cell.scoresAt (state m c) (m ((c : Thread nD τ).loc main_arg3) : S2048x10.Idx → EReal) r j := by
  unfold Cert.KernelIdeal.Arrays.scoresV
  rw [Cert.Cell.scores_ix2, stateV_eq]
  refine Cert.Cell.scoresAt_congr _ _ _ r _ j fun k => ?_
  rw [Cert.KernelIdeal.Host.readout_weights]
  exact Cert.KernelIdeal.Host.pad_column _ _ k j

/-- The program's first result is the read-out. -/
theorem first_result (c : Dev nD) :
    (Pipeline.afterTail₀ cfgs (dats m) 0 (V0 m) [hostOps1] c main_v0_0 : S4096x10.Idx → EReal) = readout m c := by
  refine (Cert.KernelIdeal.Host.first_result m c (Cert.KernelIdeal.Arrays.scoresV m c)
    (Cert.KernelIdeal.Arrays.final_scores m c)).trans ?_
  funext i
  obtain ⟨r, j, rfl⟩ : ∃ (r : Fin 4096) (j : Fin 10), i = ix2 r j := ⟨i 0, i 1, eq_ix2 i⟩
  exact (Cert.KernelIdeal.Host.first_columns (Cert.KernelIdeal.Arrays.scoresV m c) r j).trans (scores_column m c r j)

/-- The program's second result is the new state. -/
theorem second_result (c : Dev nD) : ((dats m 0 c).arrAt 6 cfg0.N : S4096x2048.Idx → EReal) = state m c :=
  (Cert.KernelIdeal.Arrays.final_state m c).trans (stateV_eq m c)

/-- The run: every weakly fair execution ends with the first result at the read-out, the second at the new state, and
    the arguments unchanged. -/
theorem run : θ_run defs (onTc (τ := τ) (main (F := Ideal))) ⟨m, fun _ => 0, ρ⟩ fun r => ∀ c : Dev nD,
      r.2.mem ((c : Thread nD τ).loc main_v0_0) = readout m c
      ∧ r.2.mem ((c : Thread nD τ).loc main_v0_1) = state m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v0_0 (Pipeline.mem_restRefs_of main_v0_0 (by decide) (by decide))).trans (first_result m c),
      ((h c).1 6).trans (second_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 2).trans (((dats m 0 c).arrAt_in 2 rfl _).trans ((A_eq m c 2).trans (V_main_arg5 m c)))⟩)
    (run_main m ρ)

end Cert.KernelIdeal.Results

end
-- ==== Proof.Reference.lean ====
/-
  The reference program's two results are the cell's new state and its read-out.

  Read one operation at a time, the reference's first result element at row `r` and unit `q` is `tanh` of the two
  products' sum plus the bias: each `dot_general` is the sum over the contracted axis of the left operand at `(r, k)`
  times the right operand at `(k, q)`, and the host's `tanh` and sum are the extended reals'. Its second result is the
  last product, of that state with the read-out weights.
-/
import proofs.«143743_j39986145526476_2_alg».proof.Proof.Gen.ReferenceIdeal.Read
import proofs.«143743_j39986145526476_2_alg».proof.Proof.Cell

noncomputable section

namespace Cert.ReferenceIdeal.Spec

open Idealize.ShloMosaic Idealize.ShloMosaic.ValueIdx Cert.ReferenceIdeal Cert.ReferenceIdeal.Read

theorem lidx0 (r : Fin 4096) (q k : Fin 2048) : lidx_main_v0 (ix2 r q) k = ix2 r k :=
  funext fun a => Fin.ext (by match a with | ⟨0, _⟩ => rfl | ⟨1, _⟩ => rfl)
theorem ridx0 (r : Fin 4096) (q k : Fin 2048) : ridx_main_v0 (ix2 r q) k = ix2 k q :=
  funext fun a => Fin.ext (by match a with | ⟨0, _⟩ => rfl | ⟨1, _⟩ => rfl)
theorem lidx1 (r : Fin 4096) (q k : Fin 2048) : lidx_main_v1 (ix2 r q) k = ix2 r k :=
  funext fun a => Fin.ext (by match a with | ⟨0, _⟩ => rfl | ⟨1, _⟩ => rfl)
theorem ridx1 (r : Fin 4096) (q k : Fin 2048) : ridx_main_v1 (ix2 r q) k = ix2 k q :=
  funext fun a => Fin.ext (by match a with | ⟨0, _⟩ => rfl | ⟨1, _⟩ => rfl)
theorem lidx5 (r : Fin 4096) (j : Fin 10) (k : Fin 2048) : lidx_main_v5 (ix2 r j) k = ix2 r k :=
  funext fun a => Fin.ext (by match a with | ⟨0, _⟩ => rfl | ⟨1, _⟩ => rfl)
theorem ridx5 (r : Fin 4096) (j : Fin 10) (k : Fin 2048) : ridx_main_v5 (ix2 r j) k = ix2 k j :=
  funext fun a => Fin.ext (by match a with | ⟨0, _⟩ => rfl | ⟨1, _⟩ => rfl)

/-- The reference's new state is the cell's. -/
theorem state_eq (x0 : (⟨S4096x2048, .f32⟩ : BufTy).Contents (Elt Ideal)) (x1 x2 : (⟨S2048x2048, .f32⟩ : BufTy).Contents (Elt Ideal))
    (x4 x5 : (⟨S4096x2048, .f32⟩ : BufTy).Contents (Elt Ideal)) :
    val_main_v4 (F := Ideal) x0 x1 x2 x4 x5 = Cert.Cell.hidden x0 x1 x2 x4 x5 := by
  funext i
  obtain ⟨r, q, rfl⟩ : ∃ (r : Fin 4096) (q : Fin 2048), i = ix2 r q := ⟨i 0, i 1, eq_ix2 i⟩
  rw [val_main_v4_apply, val_main_v3_apply, val_main_v2_apply, val_main_v0_apply, val_main_v1_apply, Cert.Cell.hidden_ix2]
  simp only [lidx0, ridx0, lidx1, ridx1]
  rfl

/-- The reference's read-out is the cell's read-out of that state. -/
theorem scores_eq (x0 : (⟨S4096x2048, .f32⟩ : BufTy).Contents (Elt Ideal)) (x1 x2 : (⟨S2048x2048, .f32⟩ : BufTy).Contents (Elt Ideal))
    (x3 : (⟨S2048x10, .f32⟩ : BufTy).Contents (Elt Ideal)) (x4 x5 : (⟨S4096x2048, .f32⟩ : BufTy).Contents (Elt Ideal)) :
    val_main_v5 (F := Ideal) x0 x1 x2 x3 x4 x5 = Cert.Cell.scores (Cert.Cell.hidden x0 x1 x2 x4 x5) x3 := by
  funext i
  obtain ⟨r, j, rfl⟩ : ∃ (r : Fin 4096) (j : Fin 10), i = ix2 r j := ⟨i 0, i 1, eq_ix2 i⟩
  rw [val_main_v5_apply, state_eq, Cert.Cell.scores_ix2]
  simp only [lidx5, ridx5]
  rfl

end Cert.ReferenceIdeal.Spec

end
-- ==== Proof.lean ====
/-
  A single step of a recurrent cell, computed by a blocked kernel, against its plain formula.

  Both programs take a batch `x`, input weights `W_hx`, recurrent weights `W_hh`, read-out weights `W_ph`, a bias
  `b_h` and a previous state `h0`, and return the read-out `p = h · W_ph` and the new state
  `h = tanh (x · W_hx + h0 · W_hh + b_h)`. The kernel computes `h` 256 rows at a time, with the weights first changed to
  a narrower float format, and `p` through weights padded from 10 to 128 columns, of which the first 10 columns are
  kept afterwards.

  On the extended reals a change of float format is the identity and both programs' matrix products are the same sums
  of products, added in the same order, so the two states are the same function of the arguments entry by entry
  (`Cert.Cell.hidden`). A column of a read-out depends on the same column of the weights only, and the first 10 columns
  of the padded weights are the argument's, so the two read-outs agree as well (`Cert.Cell.scores`). No law used here
  needs the inputs to be finite.

  The three programs run without fault and leave their arguments unchanged: for the kernel's program as printed and as
  read on the extended reals by the generated run of its one pipelined region, for the reference by its generated run.
  The kernel's program was printed on the extended reals with no rewrite, so nothing further relates the two prints.
-/
import proofs.«143743_j39986145526476_2_alg».proof.Defs
import proofs.«143743_j39986145526476_2_alg».proof.Proof.Gen.Kernel
import proofs.«143743_j39986145526476_2_alg».proof.Proof.Gen.Kernel.Skeleton
import proofs.«143743_j39986145526476_2_alg».proof.Proof.Gen.Kernel.Launch
import proofs.«143743_j39986145526476_2_alg».proof.Proof.Gen.Kernel.Points
import proofs.«143743_j39986145526476_2_alg».proof.Proof.Gen.Kernel.Frame
import proofs.«143743_j39986145526476_2_alg».proof.Proof.Gen.KernelIdeal
import proofs.«143743_j39986145526476_2_alg».proof.Proof.Gen.KernelIdeal.Skeleton
import proofs.«143743_j39986145526476_2_alg».proof.Proof.Gen.KernelIdeal.Launch
import proofs.«143743_j39986145526476_2_alg».proof.Proof.Gen.KernelIdeal.Points
import proofs.«143743_j39986145526476_2_alg».proof.Proof.Gen.KernelIdeal.Frame
import proofs.«143743_j39986145526476_2_alg».proof.Proof.Gen.ReferenceIdeal
import proofs.«143743_j39986145526476_2_alg».proof.Proof.Gen.ReferenceIdeal.Run
import proofs.«143743_j39986145526476_2_alg».proof.Proof.Gen.ReferenceIdeal.Read
import proofs.«143743_j39986145526476_2_alg».proof.Proof.Gen.Pre_finite_inputs
import proofs.«143743_j39986145526476_2_alg».proof.Proof.Results
import proofs.«143743_j39986145526476_2_alg».proof.Proof.Reference
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the read-out and the new state of those
    arguments: the kernel's program by its blocks, the reference operation by operation. -/
theorem algebraic : Cert.algebraic_KernelIdeal_ReferenceIdeal := by
  intro m ρ m' ρ' _ hagree
  refine ⟨fun c => Cert.KernelIdeal.Results.readout m c, fun c => Cert.KernelIdeal.Results.state m c,
    Cert.KernelIdeal.Results.run m ρ, ?_⟩
  refine (θ_run Cert.ReferenceIdeal.defs _ _).mono (fun _ h c => ?_) (Cert.ReferenceIdeal.Value.run (F := Ideal) m' ρ')
  obtain ⟨e0, e1, e2, e3, e4, e5⟩ := hagree c
  refine ⟨(h c).1.trans ?_, (h c).2.1.trans ?_, (h c).2.2⟩
  · rw [Cert.ReferenceIdeal.Read.val_main_v5_eq, Cert.ReferenceIdeal.Spec.scores_eq, e0, e1, e2, e3, e4, e5]
  · rw [Cert.ReferenceIdeal.Read.val_main_v4_eq, Cert.ReferenceIdeal.Spec.state_eq, e0, e1, e2, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
